-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64x32 : Shape := ⟨4, ![8, 2048, 64, 32]⟩
abbrev S16 : Shape := ⟨1, ![16]⟩
abbrev S_ : Shape := ⟨0, ![]⟩

class Facts : Prop where
  bcast_S_S8x2048x64x32 : S_.BroadcastsInDim S8x2048x64x32 (![] : Fin 0 → Fin S8x2048x64x32.rank)
  reducesTo_S8x2048x64x32_S_d0_1_2_3 : S8x2048x64x32.ReducesTo [0, 1, 2, 3] S_
  h_S_ : 0 < S_.numel

variable [Facts]

def fn {F : FTy → Type} [FloatOps F] (main_arg0 : FVec F S8x2048x64x32 .f32) (main_arg1 : IVec S16 32) (main_arg2 : IVec S16 32) (main_arg3 : IVec S16 32) : IVec S_ 1 :=
  let main_v0 : FVec F S8x2048x64x32 .f32 := Host.absf main_arg0
  let main_cst : FVec F S_ .f32 := constant S_ .f32 0x7F800000#32
  let main_v1 : FVec F S8x2048x64x32 .f32 := broadcastInDim S8x2048x64x32 ![] bcast_S_S8x2048x64x32 main_cst
  let main_v2 : IVec S8x2048x64x32 1 := cmpf .olt main_v0 main_v1
  let main_c : IVec S_ 1 := constantI S_ 1 1#1
  let main_v3 : IVec S_ 1 := (fun x v => Host.reduce IntOp.andi x v reducesTo_S8x2048x64x32_S_d0_1_2_3 h_S_) main_v2 main_c
  main_v3
-- ==== Kernel.lean ====
abbrev S8x2048x64x32 : Shape := ⟨4, ![8, 2048, 64, 32]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1x64 : Shape := ⟨2, ![1, 64]⟩
abbrev S16x64 : Shape := ⟨2, ![16, 64]⟩
abbrev S16x2048x1 : Shape := ⟨3, ![16, 2048, 1]⟩
abbrev S16x1x64 : Shape := ⟨3, ![16, 1, 64]⟩
abbrev S16x2048x64 : Shape := ⟨3, ![16, 2048, 64]⟩
abbrev S_ : Shape := ⟨0, ![]⟩
abbrev S2048x64 : Shape := ⟨2, ![2048, 64]⟩
abbrev S4x64x64x32 : Shape := ⟨4, ![4, 64, 64, 32]⟩
abbrev S64x64 : Shape := ⟨2, ![64, 64]⟩
abbrev S1x64x64x1 : Shape := ⟨4, ![1, 64, 64, 1]⟩

abbrev nBuf : Space → Nat
  | .hbm => 36
  | .vmem => 6
  | .smem => 0
  | _ => 0

abbrev bufTy : (tb : Table) → Fin (tcTables nBuf tb) → BufTy
  | .hbm, ⟨0, _⟩ => ⟨S8x2048x64x32, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S2048, .i32⟩
  | .hbm, ⟨5, _⟩ => ⟨S1x2048, .i32⟩
  | .hbm, ⟨6, _⟩ => ⟨S16x1, .i32⟩
  | .hbm, ⟨7, _⟩ => ⟨S16x2048, .i32⟩
  | .hbm, ⟨8, _⟩ => ⟨S16x2048, .i32⟩
  | .hbm, ⟨9, _⟩ => ⟨S16x2048, .i1⟩
  | .hbm, ⟨10, _⟩ => ⟨S1x2048, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S16x2048, .i32⟩
  | .hbm, ⟨15, _⟩ => ⟨S16x2048, .i32⟩
  | .hbm, ⟨16, _⟩ => ⟨S16x2048, .i1⟩
  | .hbm, ⟨17, _⟩ => ⟨S16x2048, .i1⟩
  | .hbm, ⟨18, _⟩ => ⟨S16x1, .i32⟩
  | .hbm, ⟨19, _⟩ => ⟨S1x64, .i32⟩
  | .hbm, ⟨20, _⟩ => ⟨S16x64, .i32⟩
  | .hbm, ⟨21, _⟩ => ⟨S16x64, .i32⟩
  | .hbm, ⟨22, _⟩ => ⟨S16x64, .i1⟩
  | .hbm, ⟨23, _⟩ => ⟨S16x2048x1, .i1⟩
  | .hbm, ⟨24, _⟩ => ⟨S16x1x64, .i1⟩
  | .hbm, ⟨25, _⟩ => ⟨S16x2048x64, .i1⟩
  | .hbm, ⟨26, _⟩ => ⟨S16x2048x64, .i1⟩
  | .hbm, ⟨27, _⟩ => ⟨S16x2048x64, .i1⟩
  | .hbm, ⟨28, _⟩ => ⟨S_, .i1⟩
  | .hbm, ⟨29, _⟩ => ⟨S2048x64, .i1⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S8x2048x64x32, .f32⟩
  | .local _ .vmem, ⟨0, _⟩ => ⟨S4x64x64x32, .f32⟩
  | .local _ .vmem, ⟨1, _⟩ => ⟨S4x64x64x32, .f32⟩
  | .local _ .vmem, ⟨2, _⟩ => ⟨S64x64, .f32⟩
  | .local _ .vmem, ⟨3, _⟩ => ⟨S64x64, .f32⟩
  | .local _ .vmem, ⟨4, _⟩ => ⟨S4x64x64x32, .f32⟩
  | .local _ .vmem, ⟨5, _⟩ => ⟨S4x64x64x32, .f32⟩
  | _, _ => ⟨S8x2048x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x64x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x1_S16x64_0_1 : S16x1.BroadcastsInDim S16x64 (![0, 1] : Fin 2 → Fin S16x64.rank)
  bcast_S1x64_S16x64_0_1 : S1x64.BroadcastsInDim S16x64 (![0, 1] : Fin 2 → Fin S16x64.rank)
  bcast_S16x2048_S16x2048x1_0_1 : S16x2048.BroadcastsInDim S16x2048x1 (![0, 1] : Fin 2 → Fin S16x2048x1.rank)
  bcast_S16x64_S16x1x64_0_2 : S16x64.BroadcastsInDim S16x1x64 (![0, 2] : Fin 2 → Fin S16x1x64.rank)
  bcast_S16x2048x1_S16x2048x64_0_1_2 : S16x2048x1.BroadcastsInDim S16x2048x64 (![0, 1, 2] : Fin 3 → Fin S16x2048x64.rank)
  bcast_S16x1x64_S16x2048x64_0_1_2 : S16x1x64.BroadcastsInDim S16x2048x64 (![0, 1, 2] : Fin 3 → Fin S16x2048x64.rank)
  reducesTo_S16x2048x64_S2048x64_d0 : S16x2048x64.ReducesTo [0] S2048x64
  h_S_ : 0 < S_.numel
  bcast_S_S2048x64 : S_.BroadcastsInDim S2048x64 (![] : Fin 0 → Fin S2048x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64x64x32_S4x64x64x32_0_0_0_0 : ∀ a, (![0, 0, 0, 0] : Fin 4 → Nat) a + S4x64x64x32.size a ≤ S4x64x64x32.size a
  h_S4x64x64x32 : 0 < S4x64x64x32.numel
  shapeCasts_S64x64_S1x64x64x1 : S64x64.ShapeCasts S1x64x64x1
  broadcasts_S1x64x64x1_S4x64x64x32 : S1x64x64x1.Broadcasts S4x64x64x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x64x32.size a ≤ S8x2048x64x32.size a
  hwx0_0 : ∀ i : grid0.Coords, EltTy.bits .f32 = 32 ∨ (Rect.block (s := S8x2048x64x32) S4x64x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S2048x64.size a
  hwx0_1 : ∀ i : grid0.Coords, EltTy.bits .f32 = 32 ∨ (Rect.block (s := S2048x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x64x32.size a ≤ S8x2048x64x32.size a
  hwx0_2 : ∀ i : grid0.Coords, EltTy.bits .f32 = 32 ∨ (Rect.block (s := S8x2048x64x32) S4x64x64x32.size (cc0_transform_2 i) (hinb0_2 i)).WholeWords (EltTy.packing .f32)

variable [Facts₀]

abbrev win0_0 : Pipeline.Window sig grid0 :=
  Pipeline.Window.ofSpec (Memref.whole main_arg0) S4x64x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4x64x64x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64x32 : Shape := ⟨4, ![8, 2048, 64, 32]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1x64 : Shape := ⟨2, ![1, 64]⟩
abbrev S16x64 : Shape := ⟨2, ![16, 64]⟩
abbrev S16x2048x1 : Shape := ⟨3, ![16, 2048, 1]⟩
abbrev S16x1x64 : Shape := ⟨3, ![16, 1, 64]⟩
abbrev S16x2048x64 : Shape := ⟨3, ![16, 2048, 64]⟩
abbrev S_ : Shape := ⟨0, ![]⟩
abbrev S2048x64 : Shape := ⟨2, ![2048, 64]⟩
abbrev S1x2048x64x1 : Shape := ⟨4, ![1, 2048, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x64x32, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S2048, .i32⟩
  | .hbm, ⟨5, _⟩ => ⟨S1x2048, .i32⟩
  | .hbm, ⟨6, _⟩ => ⟨S16x1, .i32⟩
  | .hbm, ⟨7, _⟩ => ⟨S16x2048, .i32⟩
  | .hbm, ⟨8, _⟩ => ⟨S16x2048, .i32⟩
  | .hbm, ⟨9, _⟩ => ⟨S16x2048, .i1⟩
  | .hbm, ⟨10, _⟩ => ⟨S1x2048, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S16x2048, .i32⟩
  | .hbm, ⟨15, _⟩ => ⟨S16x2048, .i32⟩
  | .hbm, ⟨16, _⟩ => ⟨S16x2048, .i1⟩
  | .hbm, ⟨17, _⟩ => ⟨S16x2048, .i1⟩
  | .hbm, ⟨18, _⟩ => ⟨S16x1, .i32⟩
  | .hbm, ⟨19, _⟩ => ⟨S1x64, .i32⟩
  | .hbm, ⟨20, _⟩ => ⟨S16x64, .i32⟩
  | .hbm, ⟨21, _⟩ => ⟨S16x64, .i32⟩
  | .hbm, ⟨22, _⟩ => ⟨S16x64, .i1⟩
  | .hbm, ⟨23, _⟩ => ⟨S16x2048x1, .i1⟩
  | .hbm, ⟨24, _⟩ => ⟨S16x1x64, .i1⟩
  | .hbm, ⟨25, _⟩ => ⟨S16x2048x64, .i1⟩
  | .hbm, ⟨26, _⟩ => ⟨S16x2048x64, .i1⟩
  | .hbm, ⟨27, _⟩ => ⟨S16x2048x64, .i1⟩
  | .hbm, ⟨28, _⟩ => ⟨S_, .i1⟩
  | .hbm, ⟨29, _⟩ => ⟨S2048x64, .i1⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S1x2048x64x1, .f32⟩
  | .hbm, ⟨36, _⟩ => ⟨S8x2048x64x32, .f32⟩
  | .hbm, ⟨37, _⟩ => ⟨S8x2048x64x32, .f32⟩
  | _, _ => ⟨S8x2048x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x1_S16x64_0_1 : S16x1.BroadcastsInDim S16x64 (![0, 1] : Fin 2 → Fin S16x64.rank)
  bcast_S1x64_S16x64_0_1 : S1x64.BroadcastsInDim S16x64 (![0, 1] : Fin 2 → Fin S16x64.rank)
  bcast_S16x2048_S16x2048x1_0_1 : S16x2048.BroadcastsInDim S16x2048x1 (![0, 1] : Fin 2 → Fin S16x2048x1.rank)
  bcast_S16x64_S16x1x64_0_2 : S16x64.BroadcastsInDim S16x1x64 (![0, 2] : Fin 2 → Fin S16x1x64.rank)
  bcast_S16x2048x1_S16x2048x64_0_1_2 : S16x2048x1.BroadcastsInDim S16x2048x64 (![0, 1, 2] : Fin 3 → Fin S16x2048x64.rank)
  bcast_S16x1x64_S16x2048x64_0_1_2 : S16x1x64.BroadcastsInDim S16x2048x64 (![0, 1, 2] : Fin 3 → Fin S16x2048x64.rank)
  reducesTo_S16x2048x64_S2048x64_d0 : S16x2048x64.ReducesTo [0] S2048x64
  h_S_ : 0 < S_.numel
  bcast_S_S2048x64 : S_.BroadcastsInDim S2048x64 (![] : Fin 0 → Fin S2048x64.rank)
  bcast_S2048x64_S1x2048x64x1_1_2 : S2048x64.BroadcastsInDim S1x2048x64x1 (![1, 2] : Fin 2 → Fin S1x2048x64x1.rank)
  bcast_S1x2048x64x1_S8x2048x64x32_0_1_2_3 : S1x2048x64x1.BroadcastsInDim S8x2048x64x32 (![0, 1, 2, 3] : Fin 4 → Fin S8x2048x64x32.rank)

variable [Facts₀]

class Facts : Prop extends Facts₀ where

variable [Facts]
-- ==== Proof.BodyBlock.lean ====
/-
  The kernel's body on one pair of blocks.

  At a grid point the body is handed a block of `x` of shape [4, 64, 64, 32] (batch rows, time steps, channels,
  features) and a block of the keep-matrix of shape [64, 64] (time steps, channels).  It lays the matrix block out as
  [1, 64, 64, 1], repeats it along batch and feature, and multiplies entry by entry: the output block's entry
  (b, l, ch, d) is the `x` block's entry (b, l, ch, d) times the matrix block's entry (l, ch).
-/
import proofs.«100770_j76424648065762_2_alg».proof.Proof.Gen.KernelIdeal.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The (time, channel) coordinates inside a block of `x`: where its entry meets the block of the matrix. -/
def blockTimeChan (y : S4x64x64x32.Idx) : S64x64.Idx := fun a => match a with
  | ⟨0, _⟩ => ⟨(y 1).val, (y 1).isLt⟩
  | ⟨1, _⟩ => ⟨(y 2).val, (y 2).isLt⟩

theorem blockTimeChan_zero (y : S4x64x64x32.Idx) : (blockTimeChan y 0).val = (y 1).val := rfl
theorem blockTimeChan_one (y : S4x64x64x32.Idx) : (blockTimeChan y 1).val = (y 2).val := rfl

/-- What the body leaves in the output block: each entry of the block of `x` times the entry of the block of the
    matrix at the same time step and channel. -/
theorem body_block (x0 : Vec F S4x64x64x32 .f32) (x1 : Vec F S64x64 .f32) (y : S4x64x64x32.Idx) :
    out0_2 x0 x1 y = FloatOps.mulf (x0 y) (x1 (blockTimeChan y)) := by
  unfold out0_2
  rw [View.ld_unit_zero (S := S64x64) zeros2, View.ld_unit_zero (S := S4x64x64x32) zeros4]
  refine (Value.canon2_eq x0 x1 y).trans ?_
  show FloatOps.mulf (x0 (Value.ix2_0 y)) (x1 (Value.ix2_1 y)) = FloatOps.mulf (x0 y) (x1 (blockTimeChan y))
  have e0 : Value.ix2_0 y = y := by
    funext a; apply Fin.ext
    match a with
    | ⟨0, _⟩ => rfl
    | ⟨1, _⟩ => rfl
    | ⟨2, _⟩ => rfl
    | ⟨3, _⟩ => rfl
  have e1 : Value.ix2_1 y = blockTimeChan y := by
    funext a; apply Fin.ext
    match a with
    | ⟨0, _⟩ => rfl
    | ⟨1, _⟩ => rfl
  rw [e0, e1]

end Cert.KernelIdeal.Blocks

end
-- ==== Proof.GridTiling.lean ====
/-
  The grid of the kernel's one region and the blocks of its result array.

  The grid has 2 × 32 points.  The point (p, q) works on batch rows 4p … 4p+3 and time steps 64q … 64q+63: the block
  of `x` it reads and the block of the result it writes sit at block index (p, q, 0, 0), and the block of the
  keep-matrix it reads at block index (q, 0).  The 64 result blocks tile the [8, 2048, 64, 32] array: the index
  (b, l, ch, d) lies in the block of the point (b / 4, l / 64).
-/
import proofs.«100770_j76424648065762_2_alg».proof.Proof.Gen.KernelIdeal.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

/-! ## The index maps, decided over the 64 points -/

/-- The block of `x` moves with the block of the result; the block of the matrix follows the result's time
    coordinate and spans every channel, as the result's does. -/
theorem idx_facts : ∀ t : Fin cfg0.N,
    win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = win0_2.index t (3 : Fin 4)
    ∧ win0_1.index t (0 : Fin 2) = win0_2.index t (1 : Fin 4)
    ∧ win0_1.index t (1 : Fin 2) = win0_2.index t (2 : Fin 4) :=
  (by decide +kernel : ∀ t : Fin grid0.N, _)

/-- Every block index (p, q, 0, 0) with p < 2 and q < 32 is some point's. -/
theorem idx_onto : ∀ (p : Fin 2) (q : Fin 32), ∃ t : Fin cfg0.N, win0_2.index t = ![p.val, q.val, 0, 0] :=
  (by decide +kernel : ∀ (p : Fin 2) (q : Fin 32), ∃ t : Fin grid0.N, win0_2.index t = ![p.val, q.val, 0, 0])

/-! ## The blocks tile the array -/

/-- An index of the array is in point `t`'s block iff each coordinate is in the block's range on its axis. -/
theorem mem_blk (t : Fin cfg0.N) (i : S8x2048x64x32.Idx) :
    i ∈ ((cfg0.win 2).blk t).view.set ↔ ∀ a : Fin 4, win0_2.index t a * S4x64x64x32.size a ≤ (i a).val
      ∧ (i a).val < win0_2.index t a * S4x64x64x32.size a + S4x64x64x32.size a := by
  show i ∈ ((View.whole main_v22).slice (win0_2.rect t)).set ↔ _
  rw [View.set_slice_whole, Rect.mem_set_unit]
  exact Iff.rfl

/-- The index (b, l, ch, d) lies in the block of the point (b / 4, l / 64). -/
theorem cover (i : S8x2048x64x32.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  have hi3 : (i 3).val < 32 := (i 3).isLt
  obtain ⟨t, ht⟩ := idx_onto ⟨(i 0).val / 4, by omega⟩ ⟨(i 1).val / 64, by omega⟩
  have q0 : win0_2.index t (0 : Fin 4) = (i 0).val / 4 := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 32 ≤ (i 3).val ∧ (i 3).val < win0_2.index t (3 : Fin 4) * 32 + 32; omega

end Cert.KernelIdeal.Blocks

end
-- ==== Proof.Masking.lean ====
/-
  The mathematics of time–channel masking, free of any program.

  Sixteen triples (start, length, channel) of 32-bit integers mark sixteen segments of the time axis, each on
  one channel.  Over time steps l < 2048 and channels ch < 64:

      covered   n l  = 1  iff  start n ≤ l  and  l < start n + length n     (signed comparisons, wrapping sum)
      onChannel n ch = 1  iff  channel n = ch
      zeroed    l ch = the disjunction over the sixteen n of  covered n l ∧ onChannel n ch
      keep      l ch = 0 where zeroed, 1 elsewhere.

  An array `x` of shape [8, 2048, 64, 32] (batch, time, channel, feature) is then masked entry by entry,

      masked x k (b, l, ch, d) = x (b, l, ch, d) · k (l, ch),

  the entry of the keep-matrix that an index of `x` meets depending only on the index's time and channel
  coordinates (`timeChan`).  The two programs compared in this certificate build the SAME keep-matrix, by the
  same operations, and multiply by it entry by entry; so nothing is asked of the matrix's values, no law of the
  extended reals beyond the equality of equal products is used, and finiteness of `x` plays no part.
-/
import Idealize.ShloMosaic.PureOps
import Idealize.ShloMosaic.Lib.Pipeline.Value

noncomputable section

namespace Cert.Masking

open Idealize.ShloMosaic

/-! ## Shapes -/

/-- batch × time × channel × feature. -/
abbrev SX : Shape := ⟨4, ![8, 2048, 64, 32]⟩
/-- time × channel. -/
abbrev SK : Shape := ⟨2, ![2048, 64]⟩
/-- The sixteen segments. -/
abbrev SN : Shape := ⟨1, ![16]⟩
abbrev ST : Shape := ⟨1, ![2048]⟩
abbrev S1T : Shape := ⟨2, ![1, 2048]⟩
abbrev SN1 : Shape := ⟨2, ![16, 1]⟩
abbrev SNT : Shape := ⟨2, ![16, 2048]⟩
abbrev S1C : Shape := ⟨2, ![1, 64]⟩
abbrev SNC : Shape := ⟨2, ![16, 64]⟩
abbrev SNT1 : Shape := ⟨3, ![16, 2048, 1]⟩
abbrev SN1C : Shape := ⟨3, ![16, 1, 64]⟩
abbrev SNTC : Shape := ⟨3, ![16, 2048, 64]⟩
abbrev S0 : Shape := ⟨0, ![]⟩

/-! ## The shape relations the broadcasts and the reduction take -/

theorem time_row : ST.BroadcastsInDim S1T (![1] : Fin 1 → Fin S1T.rank) := by decide
theorem seg_col : SN.BroadcastsInDim SN1 (![0] : Fin 1 → Fin SN1.rank) := by decide
theorem row_all : S1T.BroadcastsInDim SNT (![0, 1] : Fin 2 → Fin SNT.rank) := by decide
theorem col_all : SN1.BroadcastsInDim SNT (![0, 1] : Fin 2 → Fin SNT.rank) := by decide
theorem col_chan : SN1.BroadcastsInDim SNC (![0, 1] : Fin 2 → Fin SNC.rank) := by decide
theorem chan_row : S1C.BroadcastsInDim SNC (![0, 1] : Fin 2 → Fin SNC.rank) := by decide
theorem cov_unit : SNT.BroadcastsInDim SNT1 (![0, 1] : Fin 2 → Fin SNT1.rank) := by decide
theorem chan_unit : SNC.BroadcastsInDim SN1C (![0, 2] : Fin 2 → Fin SN1C.rank) := by decide
theorem cov_all : SNT1.BroadcastsInDim SNTC (![0, 1, 2] : Fin 3 → Fin SNTC.rank) := by decide
theorem chan_all : SN1C.BroadcastsInDim SNTC (![0, 1, 2] : Fin 3 → Fin SNTC.rank) := by decide
theorem over_segs : SNTC.ReducesTo [0] SK := by decide
theorem scalar_pos : 0 < S0.numel := by decide
theorem scalar_all : S0.BroadcastsInDim SK (![] : Fin 0 → Fin SK.rank) := by decide

/-! ## The keep-matrix -/

/-- Time step `l` lies in segment `n`: `start n ≤ l` and `l < start n + length n`. -/
def covered (starts lengths : IVec SN 32) : IVec SNT 1 :=
  andi
    (cmpi .sge (broadcastInDim SNT ![0, 1] row_all (broadcastInDim S1T ![1] time_row (iotaInDim ST 32 0)))
      (broadcastInDim SNT ![0, 1] col_all (broadcastInDim SN1 ![0] seg_col starts)))
    (cmpi .slt (broadcastInDim SNT ![0, 1] row_all (broadcastInDim S1T ![1] time_row (iotaInDim ST 32 0)))
      (broadcastInDim SNT ![0, 1] col_all
        (addi (broadcastInDim SN1 ![0] seg_col starts) (broadcastInDim SN1 ![0] seg_col lengths))))

/-- Segment `n` is on channel `ch`. -/
def onChannel (channels : IVec SN 32) : IVec SNC 1 :=
  cmpi .eq (broadcastInDim SNC ![0, 1] col_chan (broadcastInDim SN1 ![0] seg_col channels))
    (broadcastInDim SNC ![0, 1] chan_row (iotaInDim S1C 32 1))

/-- Some segment covers time step `l` on channel `ch`. -/
def zeroed (starts lengths channels : IVec SN 32) : IVec SK 1 :=
  Host.reduce IntOp.ori
    (andi (broadcastInDim SNTC ![0, 1, 2] cov_all (broadcastInDim SNT1 ![0, 1] cov_unit (covered starts lengths)))
      (broadcastInDim SNTC ![0, 1, 2] chan_all (broadcastInDim SN1C ![0, 2] chan_unit (onChannel channels))))
    (constantI S0 1 0#1) over_segs scalar_pos

variable {F : FTy → Type} [FloatOps F]

/-- The keep-matrix: zero where some segment covers the entry, one elsewhere. -/
def keepOf (starts lengths channels : IVec SN 32) : FVec F SK .f32 :=
  select (zeroed starts lengths channels)
    (broadcastInDim SK ![] scalar_all (constant (F := F) S0 .f32 0x00000000#32))
    (broadcastInDim SK ![] scalar_all (constant (F := F) S0 .f32 0x3F800000#32))

/-! ## Masking -/

/-- The (time, channel) coordinates of an index (batch, time, channel, feature). -/
def timeChan (i : SX.Idx) : SK.Idx := fun a => match a with
  | ⟨0, _⟩ => ⟨(i 1).val, (i 1).isLt⟩
  | ⟨1, _⟩ => ⟨(i 2).val, (i 2).isLt⟩

theorem timeChan_zero (i : SX.Idx) : (timeChan i 0).val = (i 1).val := rfl
theorem timeChan_one (i : SX.Idx) : (timeChan i 1).val = (i 2).val := rfl

/-- The masked array: every entry of `x` times the keep-matrix's entry at its time and channel. -/
def masked (x : FVec F SX .f32) (k : FVec F SK .f32) : FVec F SX .f32 :=
  fun i => FloatOps.mulf (x i) (k (timeChan i))

theorem masked_apply (x : FVec F SX .f32) (k : FVec F SK .f32) (i : SX.Idx) :
    masked x k i = FloatOps.mulf (x i) (k (timeChan i)) := rfl

/-! ## Masking by a broadcast matrix -/

/-- time × channel with a unit batch axis in front and a unit feature axis behind. -/
abbrev S1K1 : Shape := ⟨4, ![1, 2048, 64, 1]⟩

/-- Where an index (batch, time, channel, feature) reads the matrix laid out as [1, 2048, 64, 1]. -/
def unitBatchFeature (i : SX.Idx) : S1K1.Idx := fun a => match a with
  | ⟨0, _⟩ => ⟨0, Nat.one_pos⟩
  | ⟨1, _⟩ => ⟨(i 1).val, (i 1).isLt⟩
  | ⟨2, _⟩ => ⟨(i 2).val, (i 2).isLt⟩
  | ⟨3, _⟩ => ⟨0, Nat.one_pos⟩

/-- Laying a time × channel matrix out as [1, 2048, 64, 1], repeating it along batch and feature, and multiplying
    entry by entry is masking: the repeated matrix at (b, l, ch, d) is the matrix at (l, ch). -/
theorem mul_broadcast_eq_masked (h1 : SK.BroadcastsInDim S1K1 (![1, 2] : Fin 2 → Fin S1K1.rank))
    (h2 : S1K1.BroadcastsInDim SX (![0, 1, 2, 3] : Fin 4 → Fin SX.rank)) (x : FVec F SX .f32) (k : FVec F SK .f32) :
    mulf x (broadcastInDim SX ![0, 1, 2, 3] h2 (broadcastInDim S1K1 ![1, 2] h1 k)) = masked x k := by
  funext i
  show FloatOps.mulf (x i) (broadcastInDim SX ![0, 1, 2, 3] h2 (broadcastInDim S1K1 ![1, 2] h1 k) i)
    = FloatOps.mulf (x i) (k (timeChan i))
  rw [broadcastInDim_apply _ h2 (broadcastInDim S1K1 ![1, 2] h1 k) i (unitBatchFeature i) (fun a => match a with
      | ⟨0, _⟩ => by show 0 = if (1 : Nat) = 1 then 0 else (i 0).val; rw [if_pos rfl]
      | ⟨1, _⟩ => by show (i 1).val = if (2048 : Nat) = 1 then 0 else (i 1).val; rw [if_neg (by decide)]
      | ⟨2, _⟩ => by show (i 2).val = if (64 : Nat) = 1 then 0 else (i 2).val; rw [if_neg (by decide)]
      | ⟨3, _⟩ => by show 0 = if (1 : Nat) = 1 then 0 else (i 3).val; rw [if_pos rfl]),
    broadcastInDim_apply _ h1 k (unitBatchFeature i) (timeChan i) (fun a => match a with
      | ⟨0, _⟩ => by show (i 1).val = if (2048 : Nat) = 1 then 0 else (i 1).val; rw [if_neg (by decide)]
      | ⟨1, _⟩ => by show (i 2).val = if (64 : Nat) = 1 then 0 else (i 2).val; rw [if_neg (by decide)])]

end Cert.Masking

end
-- ==== Proof.KeepAtEntry.lean ====
/-
  What the kernel's region finds in the keep buffer.

  Before its one region the kernel program runs thirty-one host operations; the last of them writes the buffer the
  second window reads.  They are the stages of `Cert.Masking.keepOf`, one for one — the comparison of the time steps with
  each segment's start and end, the comparison of the channels, their conjunction, the disjunction over the sixteen
  segments, the choice of 0 or 1 — applied to the program's three integer arguments as launched.  The operations of
  the two outlined functions carry their values along equations between equal buffer types; each such transport is the
  identity.
-/
import proofs.«100770_j76424648065762_2_alg».proof.Proof.Gen.KernelIdeal.Frame
import proofs.«100770_j76424648065762_2_alg».proof.Proof.Masking
import Idealize.ShloMosaic.Lib.StableHlo.Run

noncomputable section

namespace Cert.KernelIdeal.Keep

open Cert.KernelIdeal Cert.KernelIdeal.Gen Idealize.ShloMosaic Idealize.ShloMosaic.TcCoe Idealize.SL.Sem
open Idealize.ShloMosaic.StableHlo Cert.Masking

variable {F : FTy → Type} [FloatOps F]
variable (m : (ℓ : Loc nD τ sig) → Buf (Elt F) ℓ)

set_option maxHeartbeats 2000000 in
/-- When the region is entered, the buffer its second window reads holds the keep-matrix of the arguments
    (starts, lengths, channels) as launched. -/
theorem keep_at_entry (c : Dev nD) :
    (V m c main_v21 : FVec F SK .f32)
      = keepOf (m ((c : Thread nD τ).loc main_arg1)) (m ((c : Thread nD τ).loc main_arg2))
          (m ((c : Thread nD τ).loc main_arg3)) := by
  dsimp only [V]
  simp only [hostOps0, hostOps0_1, hostOps0_2, hostOps0_3, List.flatten_cons, List.flatten_nil, List.append_nil,
    List.cons_append, List.nil_append]
  after_results_simp
  dsimp only [TRef.toBuf, TRef.ofBuf]
  repeat rw [cast_eq]
  rfl

end Cert.KernelIdeal.Keep

end
-- ==== Proof.KernelBlocks.lean ====
/-
  The kernel's result array, block by block and then whole.

  At the point (p, q) of the 2 × 32 grid the body multiplies each entry x(b, l, ch, d) of its block of `x` by the
  entry (l, ch) of its block of the keep-matrix and writes the products back to the same batch rows and time steps
  of the result array.  The block of `x` and the block of the result sit at the same place, and the matrix block's
  time coordinate is the result block's; so what each point writes back is its block of the masked array,
  x(b, l, ch, d) · keep(l, ch) over the whole arrays.  The 64 blocks tile the array, hence the array ends as the
  masked array; the keep buffer holds the keep-matrix of the integer arguments when the region is entered, and no
  host operation has touched `x`.
-/
import proofs.«100770_j76424648065762_2_alg».proof.Proof.Gen.KernelIdeal.Value
import proofs.«100770_j76424648065762_2_alg».proof.Proof.BodyBlock
import proofs.«100770_j76424648065762_2_alg».proof.Proof.GridTiling
import proofs.«100770_j76424648065762_2_alg».proof.Proof.KeepAtEntry
import proofs.«100770_j76424648065762_2_alg».proof.Proof.Masking

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.Masking

variable {F : FTy → Type} [FloatOps F]
variable (m : (ℓ : Loc nD τ sig) → Buf (Elt F) ℓ) (ρ : Dev nD → PrngReg)

/-! ## What a point writes back -/

/-- Where the block of `x` at point `t` sits in the array is where the block of the result sits. -/
theorem emb_x (t : Fin cfg0.N) (j : S4x64x64x32.Idx) :
    ((cfg0.win 0).blk t).view.emb j = ((cfg0.win 2).blk t).view.emb j := by
  obtain ⟨e0, e1, e2, e3, -, -⟩ := idx_facts t
  funext a; apply Fin.ext
  match a with
  | ⟨0, _⟩ => show win0_0.index t (0 : Fin 4) * 4 + 1 * (j 0).val = win0_2.index t (0 : Fin 4) * 4 + 1 * (j 0).val; omega
  | ⟨1, _⟩ => show win0_0.index t (1 : Fin 4) * 64 + 1 * (j 1).val = win0_2.index t (1 : Fin 4) * 64 + 1 * (j 1).val; omega
  | ⟨2, _⟩ => show win0_0.index t (2 : Fin 4) * 64 + 1 * (j 2).val = win0_2.index t (2 : Fin 4) * 64 + 1 * (j 2).val; omega
  | ⟨3, _⟩ => show win0_0.index t (3 : Fin 4) * 32 + 1 * (j 3).val = win0_2.index t (3 : Fin 4) * 32 + 1 * (j 3).val; omega

/-- The entry of the matrix block that an entry of the result block meets sits, in the matrix, at the result entry's
    time step and channel. -/
theorem emb_keep (t : Fin cfg0.N) (j : S4x64x64x32.Idx) :
    ((cfg0.win 1).blk t).view.emb (blockTimeChan j) = timeChan (((cfg0.win 2).blk t).view.emb j) := by
  obtain ⟨-, -, -, -, e4, e5⟩ := idx_facts t
  funext a; apply Fin.ext
  match a with
  | ⟨0, _⟩ => show win0_1.index t (0 : Fin 2) * 64 + 1 * (j 1).val = win0_2.index t (1 : Fin 4) * 64 + 1 * (j 1).val; omega
  | ⟨1, _⟩ => show win0_1.index t (1 : Fin 2) * 64 + 1 * (j 2).val = win0_2.index t (2 : Fin 4) * 64 + 1 * (j 2).val; omega

/-- Reading a block of `x` and a block of a matrix out of whole arrays at point `t`, running the body on them and
    cutting its output to the result's block gives that block of the masked array — for ANY two arrays, whatever
    they hold. -/
theorem blocks_eq (A0 : S8x2048x64x32.Idx → Elt F .f32) (A1 : S2048x64.Idx → Elt F .f32) (t : Fin cfg0.N) :
    (cfg0.win 2).cut (grid0.coords t)
        (out0_2 (((cfg0.win 0).blk t).view.read (Elt F) A0) (((cfg0.win 1).blk t).view.read (Elt F) A1))
      = ((cfg0.win 2).blk t).view.read (Elt F) (masked A0 A1) := by
  refine funext fun (j : S4x64x64x32.Idx) => ?_
  show out0_2 (((cfg0.win 0).blk t).view.read (Elt F) A0) (((cfg0.win 1).blk t).view.read (Elt F) A1) j
    = masked A0 A1 (((cfg0.win 2).blk t).view.emb j)
  refine (body_block (((cfg0.win 0).blk t).view.read (Elt F) A0) (((cfg0.win 1).blk t).view.read (Elt F) A1) j).trans ?_
  show FloatOps.mulf (A0 (((cfg0.win 0).blk t).view.emb j)) (A1 (((cfg0.win 1).blk t).view.emb (blockTimeChan j)))
    = FloatOps.mulf (A0 (((cfg0.win 2).blk t).view.emb j)) (A1 (timeChan (((cfg0.win 2).blk t).view.emb j)))
  rw [emb_x t j, emb_keep t j]

/-- The block of `x` the body is handed at point `t` is read out of `x` as the region finds it. -/
theorem iblk_x (c : Dev nD) (t : Fin cfg0.N) :
    iblk m c 0 t = ((cfg0.win 0).blk t).view.read (Elt F) (V m c main_arg0) := rfl

/-- The block of the matrix the body is handed at point `t` is read out of the keep buffer as the region finds it. -/
theorem iblk_keep (c : Dev nD) (t : Fin cfg0.N) :
    iblk m c 1 t = ((cfg0.win 1).blk t).view.read (Elt F) (V m c main_v21) := rfl

/-- Point `t` writes back its block of the masked array of the arrays the region finds. -/
theorem flushed_eq (c : Dev nD) (t : Fin cfg0.N) :
    (dats m 0 c).flushed 2 t
      = ((cfg0.win 2).blk t).view.read (Elt F) (masked (V m c main_arg0) (V m c main_v21)) := by
  rw [Value.flushed2, iblk_x, iblk_keep]
  exact blocks_eq (V m c main_arg0) (V m c main_v21) t

/-! ## The array after the run -/

/-- The result array ends as the masked argument array: `x` as launched times the keep-matrix of the three integer
    arguments as launched. -/
theorem final (c : Dev nD) :
    (dats m 0 c).arrAt 2 cfg0.N
      = masked (m ((c : Thread nD τ).loc main_arg0))
          (keepOf (m ((c : Thread nD τ).loc main_arg1)) (m ((c : Thread nD τ).loc main_arg2))
            (m ((c : Thread nD τ).loc main_arg3))) := by
  rw [(dats m 0 c).arrAt_eq_of_cover 2 (masked (V m c main_arg0) (V m c main_v21))
    (fun t _ => flushed_eq m c t) cover]
  exact congrArg₂ masked (V_main_arg0 m c) (Keep.keep_at_entry m c)

/-- Every weakly fair execution of the kernel program ends with its result array at the masked argument array and its
    arguments unchanged. -/
theorem run : θ_run defs (onTc (τ := τ) (main (F := F))) ⟨m, fun _ => 0, ρ⟩ fun r => ∀ c : Dev nD,
      r.2.mem ((c : Thread nD τ).loc main_v22)
        = masked (m ((c : Thread nD τ).loc main_arg0))
            (keepOf (m ((c : Thread nD τ).loc main_arg1)) (m ((c : Thread nD τ).loc main_arg2))
              (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Blocks

end
-- ==== Proof.RefMasked.lean ====
/-
  The reference program, read as masking.

  Its run ends with the result array at `x · B`, where `B` is the keep-matrix of its three integer arguments laid out as
  [1, 2048, 64, 1] and repeated along batch and feature.  The operations that build the matrix are, one for one, the
  stages of `Cert.Masking.keepOf` (the comparison of the time steps with each segment's start and end, the comparison
  of the channels, their conjunction, the disjunction over the sixteen segments, the choice of 0 or 1), so the matrix IS
  `keepOf starts lengths channels`; and multiplying by the repeated matrix is masking (`mul_broadcast_eq_masked`).
-/
import proofs.«100770_j76424648065762_2_alg».proof.Proof.RefRunP
import proofs.«100770_j76424648065762_2_alg».proof.Proof.Masking

noncomputable section

namespace Cert.ReferenceIdeal.Masked

open Cert.ReferenceIdeal Idealize.ShloMosaic Idealize.ShloMosaic.TcCoe Idealize.SL.Sem Cert.Masking

variable {F : FTy → Type} [FloatOps F]

/-- Every weakly fair execution of the reference ends with its result at the masked argument array — `x` times the
    keep-matrix of (starts, lengths, channels), entry by entry — and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = masked (m ((c.tc : Thread nD τ).loc main_arg0))
            (keepOf (m ((c.tc : Thread nD τ).loc main_arg1)) (m ((c.tc : Thread nD τ).loc main_arg2))
              (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans
      (mul_broadcast_eq_masked Cert.ReferenceIdeal.Gen.bcast_S2048x64_S1x2048x64x1_1_2
        Cert.ReferenceIdeal.Gen.bcast_S1x2048x64x1_S8x2048x64x32_0_1_2_3
        (m ((c.tc : Thread nD τ).loc main_arg0))
        (keepOf (m ((c.tc : Thread nD τ).loc main_arg1)) (m ((c.tc : Thread nD τ).loc main_arg2))
          (m ((c.tc : Thread nD τ).loc main_arg3)))), (h c).2⟩)
    (Cert.ReferenceIdeal.RunP.run m ρ)

end Cert.ReferenceIdeal.Masked

end
-- ==== Proof.lean ====
/-
  Time–channel masking: the tiled kernel against the whole-array reference.

  Both programs take an array `x` of shape [8, 2048, 64, 32] (batch, time, channel, feature) and sixteen integer
  triples (start, length, channel), build from the triples the SAME 2048 × 64 keep-matrix — 0 at (l, ch) when some
  triple's segment [start, start + length) contains the time step l on the channel ch, 1 elsewhere — by the same
  comparisons, conjunctions, disjunction over the sixteen triples and choice of 0 or 1, and return
  x(b, l, ch, d) · keep(l, ch).  The reference multiplies by the matrix repeated along batch and feature in one
  operation; the kernel does it block by block, 4 batch rows × 64 time steps at a time, over a 2 × 32 grid whose
  blocks tile the array.  Entry by entry the two results are the same product of the same two factors, so no law of
  the extended reals is used and finiteness of `x` plays no part.

  · The three programs run and leave their arguments unchanged: the two kernel programs by their generated frame
    certificates, the reference by its run with the result dropped.
  · No rewrite separates the kernel from its idealization, so that conjunct is trivial.
  · At the ideal instance both runs end with the result array at `masked x (keepOf starts lengths channels)`
    (`Cert.KernelIdeal.Blocks.run`, `Cert.ReferenceIdeal.Masked.run`), and the arguments agree.
-/
import proofs.«100770_j76424648065762_2_alg».proof.Defs
import proofs.«100770_j76424648065762_2_alg».proof.Proof.Gen.Kernel
import proofs.«100770_j76424648065762_2_alg».proof.Proof.Gen.Kernel.Skeleton
import proofs.«100770_j76424648065762_2_alg».proof.Proof.Gen.Kernel.Launch
import proofs.«100770_j76424648065762_2_alg».proof.Proof.Gen.Kernel.Points
import proofs.«100770_j76424648065762_2_alg».proof.Proof.Gen.Kernel.Frame
import proofs.«100770_j76424648065762_2_alg».proof.Proof.Gen.KernelIdeal
import proofs.«100770_j76424648065762_2_alg».proof.Proof.Gen.KernelIdeal.Skeleton
import proofs.«100770_j76424648065762_2_alg».proof.Proof.Gen.KernelIdeal.Launch
import proofs.«100770_j76424648065762_2_alg».proof.Proof.Gen.KernelIdeal.Points
import proofs.«100770_j76424648065762_2_alg».proof.Proof.Gen.KernelIdeal.Frame
import proofs.«100770_j76424648065762_2_alg».proof.Proof.Gen.ReferenceIdeal
import proofs.«100770_j76424648065762_2_alg».proof.Proof.Gen.Pre_finite_inputs
import proofs.«100770_j76424648065762_2_alg».proof.Proof.Gen.KernelIdeal.Value
import proofs.«100770_j76424648065762_2_alg».proof.Proof.KernelBlocks
import proofs.«100770_j76424648065762_2_alg».proof.Proof.RefMasked
import Idealize.ShloMosaic.Adequacy
import Idealize.ShloMosaic.Init

noncomputable section

namespace Cert.Proof

open Idealize.ShloMosaic Idealize.ShloMosaic.TcCoe Idealize.SL.Sem Cert.Masking

/-- The reference runs and leaves its arguments unchanged: its run, the result dropped. -/
theorem frame_reference : Cert.frame_ReferenceIdeal :=
  fun m ρ _ => (θ_run Cert.ReferenceIdeal.defs _ _).mono (fun _ h c => (h c).2)
    (Cert.ReferenceIdeal.Masked.run (F := Ideal) m ρ)

/-- At the ideal instance, from memories agreeing on the arguments, both programs end with the result array at the
    masked argument array. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Masked.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
